-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 88
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x32, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x32, .f32⟩
  | .hbm, ⟨78, _⟩ => ⟨S1700000x1, .f32⟩
  | .hbm, ⟨79, _⟩ => ⟨S1700000x32, .f32⟩
  | .hbm, ⟨80, _⟩ => ⟨S1700000x32, .f32⟩
  | .hbm, ⟨81, _⟩ => ⟨S_, .f32⟩
  | .hbm, ⟨82, _⟩ => ⟨S100000x32, .f32⟩
  | .hbm, ⟨83, _⟩ => ⟨S1700000x1, .i32⟩
  | .hbm, ⟨84, _⟩ => ⟨S100000x32, .f32⟩
  | .hbm, ⟨85, _⟩ => ⟨S1x32, .f32⟩
  | .hbm, ⟨86, _⟩ => ⟨S100000x32, .f32⟩
  | .hbm, ⟨87, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x32, .f32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000, .f32⟩
  | .hbm, ⟨100, _⟩ => ⟨S1700000, .f32⟩
  | .hbm, ⟨101, _⟩ => ⟨S_, .i32⟩
  | .hbm, ⟨102, _⟩ => ⟨S1700000, .i32⟩
  | .hbm, ⟨103, _⟩ => ⟨S1700000, .i1⟩
  | .hbm, ⟨104, _⟩ => ⟨S_, .i32⟩
  | .hbm, ⟨105, _⟩ => ⟨S1700000, .i32⟩
  | .hbm, ⟨106, _⟩ => ⟨S1700000, .i32⟩
  | .hbm, ⟨107, _⟩ => ⟨S1700000, .i32⟩
  | .hbm, ⟨108, _⟩ => ⟨S1700000x1, .i32⟩
  | .hbm, ⟨109, _⟩ => ⟨S1700000x32, .f32⟩
  | .hbm, ⟨110, _⟩ => ⟨S1700000x1, .f32⟩
  | .hbm, ⟨111, _⟩ => ⟨S1700000x32, .f32⟩
  | .hbm, ⟨112, _⟩ => ⟨S1700000x32, .f32⟩
  | .hbm, ⟨113, _⟩ => ⟨S_, .f32⟩
  | .hbm, ⟨114, _⟩ => ⟨S100000x32, .f32⟩
  | .hbm, ⟨115, _⟩ => ⟨S1700000x1, .i32⟩
  | .hbm, ⟨116, _⟩ => ⟨S100000x32, .f32⟩
  | .hbm, ⟨117, _⟩ => ⟨S1x32, .f32⟩
  | .hbm, ⟨118, _⟩ => ⟨S100000x32, .f32⟩
  | .hbm, ⟨119, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_c_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_c_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_19 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The kernel program's run with its result named.

  The program is eight segments: three stretches of host operations, the first dense layer's region, two more stretches,
  the second dense layer's region, and a last stretch. The buffer contents at each boundary are a fold from the launch
  memory (`W0 … W8`): a stretch applies its operations in order, a region replaces its output array by what its grid
  points wrote back and leaves every other buffer alone. Every weakly fair execution terminates with every unscoped
  buffer at the last boundary's contents; read at the result buffer and at the six arguments, that is the statement below:
  the result holds `W8` at its own reference, and the arguments hold what they were launched with.
-/
import proofs.«159858_j9560597201474_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions theorem's implicit arguments are found by unifying its conclusion with this one, which takes unfolding
-- plain definitions in a metavariable's type
set_option backward.isDefEq.respectTransparency.types false in
/-- Every weakly fair execution of the program terminates, nothing faulting, with the result buffer at the last
    boundary's contents `W8` and the argument arrays as launched. -/
theorem run_named : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Gen

end
-- ==== Proof.GraphOps.lean ====
/-
  The graph side of the two layers, as functions: the host operations both programs apply around the dense products.

  From the edge list `e` (row 0 the sources, row 1 the targets, `1600000` edges) both programs build, once and for all,
  the source and target of every message: the edges' own, followed by one self loop per node (`sources`, `targets`:
  `1700000` entries each). A node's degree counts the messages that arrive at it (`degree`: a scatter-add of ones at the
  targets), its scale is `degree^(-1/2)` where the degree is positive and zero elsewhere (`invSqrtDegree`), and a message's
  weight is the product of the scales of its two endpoints (`edgeWeights`). A layer gathers the rows of its dense product
  at the sources, scales each gathered row by its message's weight, adds the rows up at the targets, and adds the bias
  (`aggregate64`, `aggregate32`); between the layers sits a `max` with zero (`relu`). An index read as a row number counts
  from the end when negative (`wrapped`), as jnp's indexing does.

  These functions are never opened by the proof: both programs apply them, to products shown equal, so what a
  scatter-add or a gather does at an out-of-range index, or at an infinite entry, never enters.
-/
import proofs.«159858_j9560597201474_1_alg».proof.Proof.Gen.KernelIdeal
import Idealize.ShloMosaic.PureOps.Ideal

noncomputable section

namespace Cert.KernelIdeal.Graph

open Cert.KernelIdeal Cert.KernelIdeal.Facts₀ Idealize.ShloMosaic

/-- A list of row numbers, one per message. -/
abbrev Rows := IVec S1700000 32
/-- One extended real per message. -/
abbrev PerMessage := FVec Ideal S1700000 .f32
/-- One extended real per node. -/
abbrev PerNode := FVec Ideal S100000 .f32

/-- Row `r` of the edge list, followed by the node numbers `0 … 99999` (the self loops). -/
def endpoints (e : IVec S2x1600000 32) (r : Fin 2 → Nat) (hr : S2x1600000.Slices r S1x1600000) : Rows :=
  concatenate S1700000 0 [⟨S1600000, shapeCast _ (extractStridedSlice S1x1600000 r e hr) shapeCasts_S1x1600000_S1600000⟩,
    ⟨S100000, iotaInDim S100000 32 0⟩] concatenates_S1600000_S100000_S1700000_d0

/-- Where each message comes from. -/
def sources (e : IVec S2x1600000 32) : Rows := endpoints e ![0, 0] slices_S2x1600000_S1x1600000_0_0
/-- Where each message goes. -/
def targets (e : IVec S2x1600000 32) : Rows := endpoints e ![1, 0] slices_S2x1600000_S1x1600000_1_0

/-- A negative row number counts from the end: `v + 100000` where `v < 0`, else `v`. -/
def wrapped (v : Rows) : Rows :=
  select (cmpi .slt v (broadcastInDim S1700000 ![] bcast_S_S1700000 (constantI S_ 32 0#32)))
    (addi v (broadcastInDim S1700000 ![] bcast_S_S1700000 (constantI S_ 32 100000#32))) v

/-- The row numbers as a one-column array of start indices. -/
def column (v : Rows) : IVec S1700000x1 32 :=
  broadcastInDim S1700000x1 ![0] bcast_S1700000_S1700000x1_0 v

/-- How many messages arrive at each node: ones added up at the targets. -/
def degree (d : Rows) : PerNode :=
  Host.scatterAdd (F := Ideal) scatter_S100000_S1700000x1_S1700000_n_0_0_1
    (broadcastInDim S100000 ![] bcast_S_S100000 (constant S_ .f32 0x00000000#32)) (column d)
    (broadcastInDim S1700000 ![] bcast_S_S1700000 (constant S_ .f32 0x3F800000#32))

/-- `degree^(-1/2)` where the degree is positive, zero elsewhere. -/
def invSqrtDegree (d : Rows) : PerNode :=
  select (cmpf (F := Ideal) .ogt (degree d) (broadcastInDim S100000 ![] bcast_S_S100000 (constant S_ .f32 0x00000000#32)))
    (Host.rsqrt (degree d)) (broadcastInDim S100000 ![] bcast_S_S100000 (constant S_ .f32 0x00000000#32))

/-- From a scale per node: each message's weight, the scale of its source times the scale of its target. -/
def weightsFrom (q : PerNode) (s d : Rows) : PerMessage :=
  mulf (Host.gather gather_S100000_S1700000x1_S1700000_n_0_n_n_0_1_1 q (column (wrapped s)))
    (Host.gather gather_S100000_S1700000x1_S1700000_n_0_n_n_0_1_1 q (column (wrapped d)))

/-- A message's weight under the degree scales. -/
def edgeWeights (s d : Rows) : PerMessage := weightsFrom (invSqrtDegree d) s d

/-- The first layer's aggregation of the rows of `h`: gathered at the sources, weighted, added up at the targets, plus the bias. -/
def aggregate64 (h : FVec Ideal S100000x64 .f32) (s d : Rows) (n : PerMessage)
    (b : FVec Ideal S64 .f32) : FVec Ideal S100000x64 .f32 :=
  addf (Host.scatterAdd scatter_S100000x64_S1700000x1_S1700000x64_1_0_0_1
      (broadcastInDim S100000x64 ![] bcast_S_S100000x64 (constant S_ .f32 0x00000000#32)) (column d)
      (mulf (Host.gather gather_S100000x64_S1700000x1_S1700000x64_1_0_n_n_0_1_164 h (column (wrapped s)))
        (broadcastInDim S1700000x64 ![0, 1] bcast_S1700000x1_S1700000x64_0_1 (broadcastInDim S1700000x1 ![0] bcast_S1700000_S1700000x1_0 n))))
    (broadcastInDim S100000x64 ![0, 1] bcast_S1x64_S100000x64_0_1 (broadcastInDim S1x64 ![1] bcast_S64_S1x64_1 b))

/-- The larger of each entry and zero. -/
def relu (h : FVec Ideal S100000x64 .f32) : FVec Ideal S100000x64 .f32 :=
  maximumf h (broadcastInDim S100000x64 ![] bcast_S_S100000x64 (constant S_ .f32 0x00000000#32))

/-- The second layer's aggregation, over rows of 32 entries. -/
def aggregate32 (h : FVec Ideal S100000x32 .f32) (s d : Rows) (n : PerMessage)
    (b : FVec Ideal S32 .f32) : FVec Ideal S100000x32 .f32 :=
  addf (Host.scatterAdd scatter_S100000x32_S1700000x1_S1700000x32_1_0_0_1
      (broadcastInDim S100000x32 ![] bcast_S_S100000x32 (constant S_ .f32 0x00000000#32)) (column d)
      (mulf (Host.gather gather_S100000x32_S1700000x1_S1700000x32_1_0_n_n_0_1_132 h (column (wrapped s)))
        (broadcastInDim S1700000x32 ![0, 1] bcast_S1700000x1_S1700000x32_0_1 (broadcastInDim S1700000x1 ![0] bcast_S1700000_S1700000x1_0 n))))
    (broadcastInDim S100000x32 ![0, 1] bcast_S1x32_S100000x32_0_1 (broadcastInDim S1x32 ![1] bcast_S32_S1x32_1 b))

end Cert.KernelIdeal.Graph

end
-- ==== Proof.LibTypedRef.lean ====
/-
  Typed references of a module-local function's operations. An operation of an outlined function reads and writes its
  buffers through typed references: a result is transported to its buffer's type when written and back to the value's
  type when the next operation reads it. The two transports cancel, so a line of such operations composes to the
  plain composition of their functions.
-/
import Idealize.ShloMosaic.Lib.StableHlo

namespace Idealize.ShloMosaic.StableHlo.TRef

variable {sig : RefSig} {Val : EltTy → Type} {T : BufTy}

/-- Written to the buffer and read back: the value. -/
theorem ofBuf_toBuf (x : TRef sig T) (v : T.Contents Val) : x.ofBuf (x.toBuf v) = v := by
  obtain ⟨r, ty_eq, h1, h2⟩ := x
  subst ty_eq
  rfl

/-- Read from the buffer and written back: the contents. -/
theorem toBuf_ofBuf (x : TRef sig T) (v : x.ref.ty.Contents Val) : x.toBuf (x.ofBuf v) = v := by
  obtain ⟨r, ty_eq, h1, h2⟩ := x
  subst ty_eq
  rfl

end Idealize.ShloMosaic.StableHlo.TRef
-- ==== Proof.Stretches.lean ====
/-
  The kernel program's three stretches of host operations, each read as one function of the buffers it finds.

  Before the first region the program computes, from the edge list alone, the messages' sources and targets and their
  weights; between the regions it aggregates the first dense product and applies the `max` with zero; after the second
  region it aggregates the second dense product. A stretch writes only its own intermediate buffers: the arguments and
  the values an earlier stretch left for a later one pass through unchanged.
-/
import proofs.«159858_j9560597201474_1_alg».proof.Proof.Gen.KernelIdeal.Launch
import proofs.«159858_j9560597201474_1_alg».proof.Proof.GraphOps
import proofs.«159858_j9560597201474_1_alg».proof.Proof.LibTypedRef
import Idealize.ShloMosaic.Lib.StableHlo.Run

set_option maxRecDepth 16384

noncomputable section

namespace Cert.KernelIdeal.Stretches

open Cert.KernelIdeal Cert.KernelIdeal.Gen Cert.KernelIdeal.Graph
open Idealize.ShloMosaic Idealize.ShloMosaic.TcCoe Idealize.SL.Sem Idealize.ShloMosaic.StableHlo

-- the buffer contents a stretch starts from: any at all
variable (Wv : Valuation τ sig (Elt Ideal))

/-! ## The two outlined functions' buffers

`where` and `relu` are module-local functions: their operations read and write their buffers through typed references,
transporting a value to the buffer's type and back. For these buffers the two types are the same, so each transport is
the identity. -/

theorem toBuf_main_v15 (h1 h2 h3) (X : FVec Ideal S100000 .f32) :
    (TRef.of (sig := sig) (T := ⟨S100000, .f32⟩) main_v15 h1 h2 h3).toBuf (Val := Elt Ideal) X = X := rfl
theorem ofBuf_main_v12 (h1 h2 h3) (X : IVec S100000 1) :
    (TRef.of (sig := sig) (T := ⟨S100000, .i1⟩) main_v12 h1 h2 h3).ofBuf (Val := Elt Ideal) X = X := rfl
theorem ofBuf_main_v13 (h1 h2 h3) (X : FVec Ideal S100000 .f32) :
    (TRef.of (sig := sig) (T := ⟨S100000, .f32⟩) main_v13 h1 h2 h3).ofBuf (Val := Elt Ideal) X = X := rfl
theorem ofBuf_main_v14 (h1 h2 h3) (X : FVec Ideal S100000 .f32) :
    (TRef.of (sig := sig) (T := ⟨S100000, .f32⟩) main_v14 h1 h2 h3).ofBuf (Val := Elt Ideal) X = X := rfl
theorem toBuf_main_v48 (h1 h2 h3) (X : FVec Ideal S100000x64 .f32) :
    (TRef.of (sig := sig) (T := ⟨S100000x64, .f32⟩) main_v48 h1 h2 h3).toBuf (Val := Elt Ideal) X = X := rfl
theorem ofBuf_main_v47 (h1 h2 h3) (X : FVec Ideal S100000x64 .f32) :
    (TRef.of (sig := sig) (T := ⟨S100000x64, .f32⟩) main_v47 h1 h2 h3).ofBuf (Val := Elt Ideal) X = X := rfl

/-! ## Before the first region: the graph's own quantities

The first twenty operations leave the messages' sources and targets and the nodes' scales; the next nineteen read those
three and leave the messages' weights. -/

set_option maxHeartbeats 4000000 in
/-- The messages' sources, from the edge list. -/
theorem early_sources : StableHlo.after hostOps0_1 (StableHlo.after hostOps0 Wv) (Proc.devRef .tc main_v3)
    = sources (Wv (Proc.devRef .tc main_arg1)) := by
  after_results_simp
  rfl

set_option maxHeartbeats 4000000 in
/-- The messages' targets, from the edge list. -/
theorem early_targets : StableHlo.after hostOps0_1 (StableHlo.after hostOps0 Wv) (Proc.devRef .tc main_v6)
    = targets (Wv (Proc.devRef .tc main_arg1)) := by
  after_results_simp
  rfl

set_option maxHeartbeats 4000000 in
/-- The nodes' scales, from the edge list. -/
theorem early_scales : StableHlo.after hostOps0_1 (StableHlo.after hostOps0 Wv) (Proc.devRef .tc main_v15)
    = invSqrtDegree (targets (Wv (Proc.devRef .tc main_arg1))) := by
  after_results_simp
  rw [toBuf_main_v15, ofBuf_main_v12, ofBuf_main_v13, ofBuf_main_v14]
  rfl

set_option maxHeartbeats 4000000 in
/-- The messages' weights, from the scales, the sources and the targets. -/
theorem late_weights : StableHlo.after hostOps0_2 Wv (Proc.devRef .tc main_v30)
    = weightsFrom (Wv (Proc.devRef .tc main_v15)) (Wv (Proc.devRef .tc main_v3)) (Wv (Proc.devRef .tc main_v6)) := by
  after_results_simp
  rfl

set_option maxHeartbeats 4000000 in
theorem late_keeps_main_v3 : StableHlo.after hostOps0_2 Wv (Proc.devRef .tc main_v3) = Wv (Proc.devRef .tc main_v3) := by
  after_results_simp

set_option maxHeartbeats 4000000 in
theorem late_keeps_main_v6 : StableHlo.after hostOps0_2 Wv (Proc.devRef .tc main_v6) = Wv (Proc.devRef .tc main_v6) := by
  after_results_simp

set_option maxHeartbeats 4000000 in
theorem first_keeps_main_arg0 : StableHlo.after hostOps0_2 (StableHlo.after hostOps0_1 (StableHlo.after hostOps0 Wv)) (Proc.devRef .tc main_arg0) = Wv (Proc.devRef .tc main_arg0) := by
  after_results_simp

set_option maxHeartbeats 4000000 in
theorem first_keeps_main_arg2 : StableHlo.after hostOps0_2 (StableHlo.after hostOps0_1 (StableHlo.after hostOps0 Wv)) (Proc.devRef .tc main_arg2) = Wv (Proc.devRef .tc main_arg2) := by
  after_results_simp

set_option maxHeartbeats 4000000 in
theorem first_keeps_main_arg3 : StableHlo.after hostOps0_2 (StableHlo.after hostOps0_1 (StableHlo.after hostOps0 Wv)) (Proc.devRef .tc main_arg3) = Wv (Proc.devRef .tc main_arg3) := by
  after_results_simp

set_option maxHeartbeats 4000000 in
theorem first_keeps_main_arg4 : StableHlo.after hostOps0_2 (StableHlo.after hostOps0_1 (StableHlo.after hostOps0 Wv)) (Proc.devRef .tc main_arg4) = Wv (Proc.devRef .tc main_arg4) := by
  after_results_simp

set_option maxHeartbeats 4000000 in
theorem first_keeps_main_arg5 : StableHlo.after hostOps0_2 (StableHlo.after hostOps0_1 (StableHlo.after hostOps0 Wv)) (Proc.devRef .tc main_arg5) = Wv (Proc.devRef .tc main_arg5) := by
  after_results_simp

/-! ## Between the regions: the first aggregation and the `max` with zero -/

set_option maxHeartbeats 4000000 in
/-- The hidden features, from the first dense product and the graph's quantities. -/
theorem middle_hidden : StableHlo.after hostOps1_1 (StableHlo.after hostOps1 Wv) (Proc.devRef .tc main_v48)
    = relu (aggregate64 (Wv (Proc.devRef .tc main_v31)) (Wv (Proc.devRef .tc main_v3)) (Wv (Proc.devRef .tc main_v6)) (Wv (Proc.devRef .tc main_v30)) (Wv (Proc.devRef .tc main_arg3))) := by
  after_results_simp
  simp only [TRef.ofBuf_toBuf]
  rw [toBuf_main_v48, ofBuf_main_v47]
  rfl

set_option maxHeartbeats 4000000 in
theorem middle_keeps_main_v3 : StableHlo.after hostOps1_1 (StableHlo.after hostOps1 Wv) (Proc.devRef .tc main_v3) = Wv (Proc.devRef .tc main_v3) := by
  after_results_simp

set_option maxHeartbeats 4000000 in
theorem middle_keeps_main_v6 : StableHlo.after hostOps1_1 (StableHlo.after hostOps1 Wv) (Proc.devRef .tc main_v6) = Wv (Proc.devRef .tc main_v6) := by
  after_results_simp

set_option maxHeartbeats 4000000 in
theorem middle_keeps_main_v30 : StableHlo.after hostOps1_1 (StableHlo.after hostOps1 Wv) (Proc.devRef .tc main_v30) = Wv (Proc.devRef .tc main_v30) := by
  after_results_simp

set_option maxHeartbeats 4000000 in
theorem middle_keeps_main_arg4 : StableHlo.after hostOps1_1 (StableHlo.after hostOps1 Wv) (Proc.devRef .tc main_arg4) = Wv (Proc.devRef .tc main_arg4) := by
  after_results_simp

set_option maxHeartbeats 4000000 in
theorem middle_keeps_main_arg5 : StableHlo.after hostOps1_1 (StableHlo.after hostOps1 Wv) (Proc.devRef .tc main_arg5) = Wv (Proc.devRef .tc main_arg5) := by
  after_results_simp

/-! ## After the second region: the second aggregation -/

set_option maxHeartbeats 4000000 in
/-- The result, from the second dense product and the graph's quantities. -/
theorem last_result : StableHlo.after hostOps2 Wv (Proc.devRef .tc main_v65)
    = aggregate32 (Wv (Proc.devRef .tc main_v49)) (Wv (Proc.devRef .tc main_v3)) (Wv (Proc.devRef .tc main_v6)) (Wv (Proc.devRef .tc main_v30)) (Wv (Proc.devRef .tc main_arg5)) := by
  after_results_simp
  rfl

end Cert.KernelIdeal.Stretches

end
-- ==== Proof.DenseOne.lean ====
/-
  The first dense layer, run as a row-tiled kernel: what the region leaves in its output array.

  The region's grid has 20 points. Point `t` stages rows `5000·t … 5000·t + 4999` of the left operand (a
  `100000 × 128` array), the whole right operand (`128 × 64`), and writes rows `5000·t … 5000·t + 4999` of the
  `100000 × 64` result. The body rounds both blocks to bf16 — the identity on the extended reals — and multiplies them
  into a zero accumulator, so entry `(p, n)` of the block it stores is `∑ k, x (5000·t + p, k) · w (k, n)`.
  That is entry `(5000·t + p, n)` of the product of the WHOLE arrays; the twenty row blocks tile the result, so after
  the region the output array is the whole product: the host's `dot_general` of the two arrays as the region found them.
  Nothing here needs the entries to be finite: a sum of products is compared with the same sum of the same products.
-/
import proofs.«159858_j9560597201474_1_alg».proof.Proof.Gen.KernelIdeal.Frame
import proofs.«159858_j9560597201474_1_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.DenseOne

open Cert.KernelIdeal Cert.KernelIdeal.Gen Idealize.ShloMosaic Idealize.ShloMosaic.TcCoe Idealize.SL.Sem
open Idealize.ShloMosaic.Pipeline (Dat)

/-! ## The product of the whole arrays, entry by entry -/

/-- Row `i 0`, column `k` of the left operand. -/
abbrev lhsAt (i : S100000x64.Idx) (k : Fin 128) : S100000x128.Idx := fun a => match a with
  | ⟨0, _⟩ => ⟨(i 0).val, (i 0).isLt⟩
  | ⟨1, _⟩ => ⟨k.val, k.isLt⟩
/-- Row `k`, column `i 1` of the right operand. -/
abbrev rhsAt (i : S100000x64.Idx) (k : Fin 128) : S128x64.Idx := fun a => match a with
  | ⟨0, _⟩ => ⟨k.val, k.isLt⟩
  | ⟨1, _⟩ => ⟨(i 1).val, (i 1).isLt⟩

/-- The matrix product `x · w` of a `100000 × 128` and a `128 × 64` array over the extended reals. -/
def product (x : S100000x128.Idx → EReal) (w : S128x64.Idx → EReal) : S100000x64.Idx → EReal :=
  fun i => ∑ k : Fin 128, x (lhsAt i k) * w (rhsAt i k)

/-- The reference's record of its first `dot_general`: columns of the left operand against rows of the right. -/
abbrev hostDot : DotDims Cert.ReferenceIdeal.S100000x128 Cert.ReferenceIdeal.S128x64 Cert.ReferenceIdeal.S100000x64 :=
  Cert.ReferenceIdeal.dot_S100000x128_S128x64_S100000x64_1_0_0_1_n_n

/-- Which entries of its operands the host's `dot_general` reads at output entry `i` and contraction index `q`:
    row `i 0` of the left operand, column `i 1` of the right one, and `q`'s one coordinate on the contracted axes. -/

theorem hostDot_lhs0 (i) (q : hostDot.contr.Idx) : (hostDot.lhsIdx i q 0).val = (i 0).val := by
  unfold DotDims.lhsIdx
  rw [dif_neg (show ¬(0 : Fin Cert.ReferenceIdeal.S100000x128.rank) ∈ hostDot.lhsBatch by decide), dif_pos (show (0 : Fin Cert.ReferenceIdeal.S100000x128.rank) ∈ hostDot.lhsNonContracting by decide)]
  rfl
theorem hostDot_lhs1 (i) (q : hostDot.contr.Idx) : (hostDot.lhsIdx i q 1).val = (q ⟨0, by decide⟩).val :=
  hostDot.lhsIdx_val_of_single rfl i q
theorem hostDot_rhs0 (i) (q : hostDot.contr.Idx) : (hostDot.rhsIdx i q 0).val = (q ⟨0, by decide⟩).val :=
  hostDot.rhsIdx_val_of_single rfl i q
theorem hostDot_rhs1 (i) (q : hostDot.contr.Idx) : (hostDot.rhsIdx i q 1).val = (i 1).val := by
  unfold DotDims.rhsIdx
  rw [dif_neg (show ¬(1 : Fin Cert.ReferenceIdeal.S128x64.rank) ∈ hostDot.rhsBatch by decide), dif_pos (show (1 : Fin Cert.ReferenceIdeal.S128x64.rank) ∈ hostDot.rhsNonContracting by decide)]
  rfl

/-- The host's `dot_general` of the two arrays, contracting the left operand's columns with the right operand's rows,
    is that product: the same sum, its one contraction coordinate renamed to `Fin 128`. -/
theorem hostDot_eq_product (x : FVec Ideal Cert.ReferenceIdeal.S100000x128 .f32) (w : FVec Ideal Cert.ReferenceIdeal.S128x64 .f32) :
    Host.dotGeneral (F := Ideal) hostDot none x w = product x w := by
  funext i
  simp only [Host.dotGeneral]
  rw [Ideal.dotGeneral_apply]
  unfold product
  rw [← Equiv.sum_comp (ValueIdx.contrEquiv1 hostDot 128 rfl rfl).symm]
  refine Finset.sum_congr rfl fun k _ => ?_
  have hk := ValueIdx.contrEquiv1_symm_val hostDot 128 rfl rfl k
  have el : hostDot.lhsIdx i ((ValueIdx.contrEquiv1 hostDot 128 rfl rfl).symm k) = lhsAt i k := funext fun a => Fin.ext (by
    match a with
    | ⟨0, _⟩ => exact hostDot_lhs0 _ _
    | ⟨1, _⟩ => exact (hostDot_lhs1 _ _).trans hk)
  have er : hostDot.rhsIdx i ((ValueIdx.contrEquiv1 hostDot 128 rfl rfl).symm k) = rhsAt i k := funext fun a => Fin.ext (by
    match a with
    | ⟨0, _⟩ => exact (hostDot_rhs0 _ _).trans hk
    | ⟨1, _⟩ => exact hostDot_rhs1 _ _)
  rw [el, er]

/-! ## The body's block -/

/-- The kernel's record of its matmul: a `5000 × 128` block against the `128 × 64` weights. -/
abbrev blockDot : DotDims S5000x128 S128x64 S5000x64 := dot_S5000x128_S128x64_S5000x64_1_0_0_1_n_n

/-- Row `j 0`, column `k` of the staged block of the left operand. -/
abbrev blockLhsAt (j : S5000x64.Idx) (k : Fin 128) : S5000x128.Idx := fun a => match a with
  | ⟨0, _⟩ => ⟨(j 0).val, (j 0).isLt⟩
  | ⟨1, _⟩ => ⟨k.val, k.isLt⟩
/-- Row `k`, column `j 1` of the staged right operand. -/
abbrev blockRhsAt (j : S5000x64.Idx) (k : Fin 128) : S128x64.Idx := fun a => match a with
  | ⟨0, _⟩ => ⟨k.val, k.isLt⟩
  | ⟨1, _⟩ => ⟨(j 1).val, (j 1).isLt⟩

theorem blockDot_lhs0 (i) (q : blockDot.contr.Idx) : (blockDot.lhsIdx i q 0).val = (i 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem blockDot_lhs1 (i) (q : blockDot.contr.Idx) : (blockDot.lhsIdx i q 1).val = (q ⟨0, by decide⟩).val :=
  blockDot.lhsIdx_val_of_single rfl i q
theorem blockDot_rhs0 (i) (q : blockDot.contr.Idx) : (blockDot.rhsIdx i q 0).val = (q ⟨0, by decide⟩).val :=
  blockDot.rhsIdx_val_of_single rfl i q
theorem blockDot_rhs1 (i) (q : blockDot.contr.Idx) : (blockDot.rhsIdx i q 1).val = (i 1).val := by
  unfold DotDims.rhsIdx
  rw [dif_neg (show ¬(1 : Fin S128x64.rank) ∈ blockDot.rhsBatch by decide), dif_pos (show (1 : Fin S128x64.rank) ∈ blockDot.rhsNonContracting by decide)]
  rfl

/-- Entry `j` of the value the body stores: rounding to bf16 is the identity on the extended reals and the accumulator
    is zero, so it is the sum over the contraction coordinate of the products of the two staged blocks' entries. -/
theorem payload_apply (x0 : Vec Ideal S5000x128 .f32) (x1 : Vec Ideal S128x64 .f32) (i : S5000x64.Idx) :
    k0_pay1 (F := Ideal) x0 x1 i = ∑ k : Fin 128, x0 (blockLhsAt i k) * x1 (blockRhsAt i k) := by
  unfold k0_pay1
  simp only [matmul]
  rw [Ideal.matmul_constant_zero_apply]
  show ∑ q : blockDot.contr.Idx, x0 (blockDot.lhsIdx i q) * x1 (blockDot.rhsIdx i q) = _
  rw [← Equiv.sum_comp (ValueIdx.contrEquiv1 blockDot 128 rfl rfl).symm]
  refine Finset.sum_congr rfl fun k _ => ?_
  have hk := ValueIdx.contrEquiv1_symm_val blockDot 128 rfl rfl k
  have el : blockDot.lhsIdx i ((ValueIdx.contrEquiv1 blockDot 128 rfl rfl).symm k) = blockLhsAt i k := funext fun a => Fin.ext (by
    match a with
    | ⟨0, _⟩ => exact blockDot_lhs0 _ _
    | ⟨1, _⟩ => exact (blockDot_lhs1 _ _).trans hk)
  have er : blockDot.rhsIdx i ((ValueIdx.contrEquiv1 blockDot 128 rfl rfl).symm k) = blockRhsAt i k := funext fun a => Fin.ext (by
    match a with
    | ⟨0, _⟩ => exact (blockDot_rhs0 _ _).trans hk
    | ⟨1, _⟩ => exact blockDot_rhs1 _ _)
  rw [el, er]

/-! ## From the blocks to the array -/

section Array
-- the buffer contents when the region is entered: any at all
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the twenty grid points: the left operand's row block is the output's, every other
    block index is zero, and the output's row blocks are numbered below twenty. -/
theorem index_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every row block of the output is some point's. -/
theorem index_onto : ∀ q : Fin 20, ∃ t : Fin cfg0.N, win0_2.index t = ![q.val, 0] :=
  (by decide +kernel : ∀ q : Fin 20, ∃ t : Fin grid0.N, win0_2.index t = ![q.val, 0])

/-- What point `t` writes back is block `t` of the product of the two arrays as the region found them: entry `(p, n)`
    of the stored block sums `x (5000·t + p, k) · w (k, n)` over `k`, which is entry `(5000·t + p, n)` of the product. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  obtain ⟨e0, e1, e2, e3, e4, e5⟩ := index_facts t
  funext j
  show k0_pay1 (F := Ideal) (iblk0 V c 0 t) (iblk0 V c 1 t) j
    = product (V c main_arg0) (V c main_arg2) (((cfg0.win 2).blk t).view.emb j)
  refine (payload_apply (iblk0 V c 0 t) (iblk0 V c 1 t) j).trans ?_
  unfold product
  refine Finset.sum_congr rfl fun k _ => ?_
  have h0 : ((cfg0.win 0).blk t).view.emb (blockLhsAt j k) = lhsAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (blockRhsAt j k) = rhsAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  have hx : iblk0 V c 0 t (blockLhsAt j k) = (V c main_arg0 : S100000x128.Idx → EReal) (lhsAt (((cfg0.win 2).blk t).view.emb j) k) :=
    congrArg (V c main_arg0 : S100000x128.Idx → EReal) h0
  have hw : iblk0 V c 1 t (blockRhsAt j k) = (V c main_arg2 : S128x64.Idx → EReal) (rhsAt (((cfg0.win 2).blk t).view.emb j) k) :=
    congrArg (V c main_arg2 : S128x64.Idx → EReal) h1
  exact congrArg₂ (fun a b : EReal => a * b) hx hw

/-- An entry of the output array is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- The twenty row blocks tile the output: row `r` is in block `r / 5000`. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region its output array is the product of the two arrays it was entered with. -/
theorem array_eq (c : Dev nD) : (dat0 V c).arrAt 2 cfg0.N = product (V c main_arg0) (V c main_arg2) :=
  (dat0 V c).arrAt_eq_of_cover 2 _ (fun t _ => flushed_eq V c t) covered

end Array

end Cert.KernelIdeal.DenseOne

end
-- ==== Proof.DenseTwo.lean ====
/-
  The second dense layer, run as a row-tiled kernel: what the region leaves in its output array.

  The region's grid has 20 points. Point `t` stages rows `5000·t … 5000·t + 4999` of the left operand (the
  `100000 × 64` hidden features), the whole right operand (`64 × 32`), and writes rows `5000·t … 5000·t + 4999` of the
  `100000 × 32` result. The body rounds both blocks to bf16 — the identity on the extended reals; the staged block
  first passes a reshape to its own shape, also the identity — and multiplies them into a zero accumulator, so entry
  `(p, n)` of the block it stores is `∑ k, h (5000·t + p, k) · w (k, n)`. That is entry `(5000·t + p, n)` of the product
  of the WHOLE arrays; the twenty row blocks tile the result, so after the region the output array is the whole product:
  the host's `dot_general` of the two arrays as the region found them. Nothing here needs the entries to be finite.
-/
import proofs.«159858_j9560597201474_1_alg».proof.Proof.Gen.KernelIdeal.Frame
import proofs.«159858_j9560597201474_1_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.DenseTwo

open Cert.KernelIdeal Cert.KernelIdeal.Gen Idealize.ShloMosaic Idealize.ShloMosaic.TcCoe Idealize.SL.Sem
open Idealize.ShloMosaic.Pipeline (Dat)

/-! ## The product of the whole arrays, entry by entry -/

/-- Row `i 0`, column `k` of the left operand. -/
abbrev lhsAt (i : S100000x32.Idx) (k : Fin 64) : S100000x64.Idx := fun a => match a with
  | ⟨0, _⟩ => ⟨(i 0).val, (i 0).isLt⟩
  | ⟨1, _⟩ => ⟨k.val, k.isLt⟩
/-- Row `k`, column `i 1` of the right operand. -/
abbrev rhsAt (i : S100000x32.Idx) (k : Fin 64) : S64x32.Idx := fun a => match a with
  | ⟨0, _⟩ => ⟨k.val, k.isLt⟩
  | ⟨1, _⟩ => ⟨(i 1).val, (i 1).isLt⟩

/-- The matrix product `x · w` of a `100000 × 64` and a `64 × 32` array over the extended reals. -/
def product (x : S100000x64.Idx → EReal) (w : S64x32.Idx → EReal) : S100000x32.Idx → EReal :=
  fun i => ∑ k : Fin 64, x (lhsAt i k) * w (rhsAt i k)

/-- The reference's record of its second `dot_general`: columns of the left operand against rows of the right. -/
abbrev hostDot : DotDims Cert.ReferenceIdeal.S100000x64 Cert.ReferenceIdeal.S64x32 Cert.ReferenceIdeal.S100000x32 :=
  Cert.ReferenceIdeal.dot_S100000x64_S64x32_S100000x32_1_0_0_1_n_n

/-- Which entries of its operands the host's `dot_general` reads at output entry `i` and contraction index `q`:
    row `i 0` of the left operand, column `i 1` of the right one, and `q`'s one coordinate on the contracted axes. -/

theorem hostDot_lhs0 (i) (q : hostDot.contr.Idx) : (hostDot.lhsIdx i q 0).val = (i 0).val := by
  unfold DotDims.lhsIdx
  rw [dif_neg (show ¬(0 : Fin Cert.ReferenceIdeal.S100000x64.rank) ∈ hostDot.lhsBatch by decide), dif_pos (show (0 : Fin Cert.ReferenceIdeal.S100000x64.rank) ∈ hostDot.lhsNonContracting by decide)]
  rfl
theorem hostDot_lhs1 (i) (q : hostDot.contr.Idx) : (hostDot.lhsIdx i q 1).val = (q ⟨0, by decide⟩).val :=
  hostDot.lhsIdx_val_of_single rfl i q
theorem hostDot_rhs0 (i) (q : hostDot.contr.Idx) : (hostDot.rhsIdx i q 0).val = (q ⟨0, by decide⟩).val :=
  hostDot.rhsIdx_val_of_single rfl i q
theorem hostDot_rhs1 (i) (q : hostDot.contr.Idx) : (hostDot.rhsIdx i q 1).val = (i 1).val := by
  unfold DotDims.rhsIdx
  rw [dif_neg (show ¬(1 : Fin Cert.ReferenceIdeal.S64x32.rank) ∈ hostDot.rhsBatch by decide), dif_pos (show (1 : Fin Cert.ReferenceIdeal.S64x32.rank) ∈ hostDot.rhsNonContracting by decide)]
  rfl

/-- The host's `dot_general` of the two arrays, contracting the left operand's columns with the right operand's rows,
    is that product: the same sum, its one contraction coordinate renamed to `Fin 64`. -/
theorem hostDot_eq_product (x : FVec Ideal Cert.ReferenceIdeal.S100000x64 .f32) (w : FVec Ideal Cert.ReferenceIdeal.S64x32 .f32) :
    Host.dotGeneral (F := Ideal) hostDot none x w = product x w := by
  funext i
  simp only [Host.dotGeneral]
  rw [Ideal.dotGeneral_apply]
  unfold product
  rw [← Equiv.sum_comp (ValueIdx.contrEquiv1 hostDot 64 rfl rfl).symm]
  refine Finset.sum_congr rfl fun k _ => ?_
  have hk := ValueIdx.contrEquiv1_symm_val hostDot 64 rfl rfl k
  have el : hostDot.lhsIdx i ((ValueIdx.contrEquiv1 hostDot 64 rfl rfl).symm k) = lhsAt i k := funext fun a => Fin.ext (by
    match a with
    | ⟨0, _⟩ => exact hostDot_lhs0 _ _
    | ⟨1, _⟩ => exact (hostDot_lhs1 _ _).trans hk)
  have er : hostDot.rhsIdx i ((ValueIdx.contrEquiv1 hostDot 64 rfl rfl).symm k) = rhsAt i k := funext fun a => Fin.ext (by
    match a with
    | ⟨0, _⟩ => exact (hostDot_rhs0 _ _).trans hk
    | ⟨1, _⟩ => exact hostDot_rhs1 _ _)
  rw [el, er]

/-! ## The body's block -/

/-- The kernel's record of its matmul: a `5000 × 64` block against the `64 × 32` weights. -/
abbrev blockDot : DotDims S5000x64 S64x32 S5000x32 := dot_S5000x64_S64x32_S5000x32_1_0_0_1_n_n

/-- Row `j 0`, column `k` of the staged block of the left operand. -/
abbrev blockLhsAt (j : S5000x32.Idx) (k : Fin 64) : S5000x64.Idx := fun a => match a with
  | ⟨0, _⟩ => ⟨(j 0).val, (j 0).isLt⟩
  | ⟨1, _⟩ => ⟨k.val, k.isLt⟩
/-- Row `k`, column `j 1` of the staged right operand. -/
abbrev blockRhsAt (j : S5000x32.Idx) (k : Fin 64) : S64x32.Idx := fun a => match a with
  | ⟨0, _⟩ => ⟨k.val, k.isLt⟩
  | ⟨1, _⟩ => ⟨(j 1).val, (j 1).isLt⟩

theorem blockDot_lhs0 (i) (q : blockDot.contr.Idx) : (blockDot.lhsIdx i q 0).val = (i 0).val := by
  unfold DotDims.lhsIdx
  rw [dif_neg (show ¬(0 : Fin S5000x64.rank) ∈ blockDot.lhsBatch by decide), dif_pos (show (0 : Fin S5000x64.rank) ∈ blockDot.lhsNonContracting by decide)]
  rfl
theorem blockDot_lhs1 (i) (q : blockDot.contr.Idx) : (blockDot.lhsIdx i q 1).val = (q ⟨0, by decide⟩).val :=
  blockDot.lhsIdx_val_of_single rfl i q
theorem blockDot_rhs0 (i) (q : blockDot.contr.Idx) : (blockDot.rhsIdx i q 0).val = (q ⟨0, by decide⟩).val :=
  blockDot.rhsIdx_val_of_single rfl i q
theorem blockDot_rhs1 (i) (q : blockDot.contr.Idx) : (blockDot.rhsIdx i q 1).val = (i 1).val := by
  unfold DotDims.rhsIdx
  rw [dif_neg (show ¬(1 : Fin S64x32.rank) ∈ blockDot.rhsBatch by decide), dif_pos (show (1 : Fin S64x32.rank) ∈ blockDot.rhsNonContracting by decide)]
  rfl

/-- Entry `j` of the value the body stores: a reshape to the same shape and rounding to bf16 are the identity on the extended reals and the
    accumulator is zero, so it is the sum over the contraction coordinate of the products of the two staged blocks' entries. -/
theorem payload_apply (x0 : Vec Ideal S5000x64 .f32) (x1 : Vec Ideal S64x32 .f32) (i : S5000x32.Idx) :
    k1_pay1 (F := Ideal) x0 x1 i = ∑ k : Fin 64, x0 (blockLhsAt i k) * x1 (blockRhsAt i k) := by
  unfold k1_pay1
  rw [shapeCast_self]
  simp only [matmul]
  rw [Ideal.matmul_constant_zero_apply]
  show ∑ q : blockDot.contr.Idx, x0 (blockDot.lhsIdx i q) * x1 (blockDot.rhsIdx i q) = _
  rw [← Equiv.sum_comp (ValueIdx.contrEquiv1 blockDot 64 rfl rfl).symm]
  refine Finset.sum_congr rfl fun k _ => ?_
  have hk := ValueIdx.contrEquiv1_symm_val blockDot 64 rfl rfl k
  have el : blockDot.lhsIdx i ((ValueIdx.contrEquiv1 blockDot 64 rfl rfl).symm k) = blockLhsAt i k := funext fun a => Fin.ext (by
    match a with
    | ⟨0, _⟩ => exact blockDot_lhs0 _ _
    | ⟨1, _⟩ => exact (blockDot_lhs1 _ _).trans hk)
  have er : blockDot.rhsIdx i ((ValueIdx.contrEquiv1 blockDot 64 rfl rfl).symm k) = blockRhsAt i k := funext fun a => Fin.ext (by
    match a with
    | ⟨0, _⟩ => exact (blockDot_rhs0 _ _).trans hk
    | ⟨1, _⟩ => exact blockDot_rhs1 _ _)
  rw [el, er]

/-! ## From the blocks to the array -/

section Array
-- the buffer contents when the region is entered: any at all
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the twenty grid points: the left operand's row block is the output's, every other
    block index is zero, and the output's row blocks are numbered below twenty. -/
theorem index_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every row block of the output is some point's. -/
theorem index_onto : ∀ q : Fin 20, ∃ t : Fin cfg1.N, win1_2.index t = ![q.val, 0] :=
  (by decide +kernel : ∀ q : Fin 20, ∃ t : Fin grid1.N, win1_2.index t = ![q.val, 0])

/-- What point `t` writes back is block `t` of the product of the two arrays as the region found them: entry `(p, n)`
    of the stored block sums `h (5000·t + p, k) · w (k, n)` over `k`, which is entry `(5000·t + p, n)` of the product. -/
theorem flushed_eq (c : Dev nD) (t : Fin cfg1.N) :
    (dat1 V c).flushed 2 t = ((cfg1.win 2).blk t).view.read (Elt Ideal) (product (V c main_v48) (V c main_arg4)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S64x32) zero_offsets]
  obtain ⟨e0, e1, e2, e3, e4, e5⟩ := index_facts t
  funext j
  show k1_pay1 (F := Ideal) (iblk1 V c 0 t) (iblk1 V c 1 t) j
    = product (V c main_v48) (V c main_arg4) (((cfg1.win 2).blk t).view.emb j)
  refine (payload_apply (iblk1 V c 0 t) (iblk1 V c 1 t) j).trans ?_
  unfold product
  refine Finset.sum_congr rfl fun k _ => ?_
  have h0 : ((cfg1.win 0).blk t).view.emb (blockLhsAt j k) = lhsAt (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * k.val = k.val; omega
  have h1 : ((cfg1.win 1).blk t).view.emb (blockRhsAt j k) = rhsAt (((cfg1.win 2).blk t).view.emb j) k := by
    funext a; apply Fin.ext
    match a with
    | ⟨0, _⟩ => show win1_1.index t (0 : Fin 2) * 64 + 1 * k.val = k.val; omega
    | ⟨1, _⟩ => show win1_1.index t (1 : Fin 2) * 32 + 1 * (j 1).val = win1_2.index t (1 : Fin 2) * 32 + 1 * (j 1).val; omega
  have hx : iblk1 V c 0 t (blockLhsAt j k) = (V c main_v48 : S100000x64.Idx → EReal) (lhsAt (((cfg1.win 2).blk t).view.emb j) k) :=
    congrArg (V c main_v48 : S100000x64.Idx → EReal) h0
  have hw : iblk1 V c 1 t (blockRhsAt j k) = (V c main_arg4 : S64x32.Idx → EReal) (rhsAt (((cfg1.win 2).blk t).view.emb j) k) :=
    congrArg (V c main_arg4 : S64x32.Idx → EReal) h1
  exact congrArg₂ (fun a b : EReal => a * b) hx hw

/-- An entry of the output array is in point `t`'s block iff each coordinate is in the block's range on its axis. -/
theorem mem_block (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v49).slice (win1_2.rect t)).set ↔ _
  rw [View.set_slice_whole, Rect.mem_set_unit]
  exact Iff.rfl

/-- The twenty row blocks tile the output: row `r` is in block `r / 5000`. -/
theorem covered (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 32 + 32; omega

/-- After the region its output array is the product of the two arrays it was entered with. -/
theorem array_eq (c : Dev nD) : (dat1 V c).arrAt 2 cfg1.N = product (V c main_v48) (V c main_arg4) :=
  (dat1 V c).arrAt_eq_of_cover 2 _ (fun t _ => flushed_eq V c t) covered

end Array

end Cert.KernelIdeal.DenseTwo

end
-- ==== Proof.Network.lean ====
/-
  The two-layer graph network both programs compute, as ONE function of the six arguments.

  `network x e w1 b1 w2 b2`: the dense product `x · w1`, aggregated over the graph `e` with bias `b1`, the `max` with zero,
  the dense product of that with `w2`, aggregated over the same graph with bias `b2`. The graph's quantities — each
  message's source, target and weight — depend on `e` only and are the same in both layers.
-/
import proofs.«159858_j9560597201474_1_alg».proof.Proof.GraphOps
import proofs.«159858_j9560597201474_1_alg».proof.Proof.DenseOne
import proofs.«159858_j9560597201474_1_alg».proof.Proof.DenseTwo

noncomputable section

namespace Cert.KernelIdeal.Graph

open Cert.KernelIdeal Idealize.ShloMosaic

/-- The hidden features: the first layer, then the `max` with zero. -/
def hidden (x : FVec Ideal S100000x128 .f32) (e : IVec S2x1600000 32)
    (w1 : FVec Ideal S128x64 .f32) (b1 : FVec Ideal S64 .f32) :
    FVec Ideal S100000x64 .f32 :=
  relu (aggregate64 (DenseOne.product x w1) (sources e) (targets e) (edgeWeights (sources e) (targets e)) b1)

/-- The network's output: the second layer over the hidden features. -/
def network (x : FVec Ideal S100000x128 .f32) (e : IVec S2x1600000 32)
    (w1 : FVec Ideal S128x64 .f32) (b1 : FVec Ideal S64 .f32)
    (w2 : FVec Ideal S64x32 .f32) (b2 : FVec Ideal S32 .f32) :
    FVec Ideal S100000x32 .f32 :=
  aggregate32 (DenseTwo.product (hidden x e w1 b1) w2) (sources e) (targets e) (edgeWeights (sources e) (targets e)) b2

end Cert.KernelIdeal.Graph

end
-- ==== Proof.KernelValue.lean ====
/-
  What the kernel program's result buffer holds after the run: the network of the six arguments.

  The contents at the last boundary are read back boundary by boundary. Before the first region the host has left the
  messages' sources, targets and weights, functions of the edge list; the first region leaves the product of the
  features with the first weights in its output array and touches nothing else; the middle stretch aggregates that
  product and applies the `max` with zero, leaving the graph's quantities alone; the second region leaves the product of
  the hidden features with the second weights; the last stretch aggregates it. The arguments are never written.
-/
import proofs.«159858_j9560597201474_1_alg».proof.Proof.KernelRun
import proofs.«159858_j9560597201474_1_alg».proof.Proof.Stretches
import proofs.«159858_j9560597201474_1_alg».proof.Proof.Network

set_option maxRecDepth 16384

noncomputable section

namespace Cert.KernelIdeal.Result

open Cert.KernelIdeal Cert.KernelIdeal.Gen Cert.KernelIdeal.Graph Cert.KernelIdeal.Stretches
open Idealize.ShloMosaic Idealize.ShloMosaic.TcCoe Idealize.SL.Sem

variable (m : (ℓ : Loc nD τ sig) → Buf (Elt Ideal) ℓ) (ρ : Dev nD → PrngReg)

/-- The last boundary's contents at the result buffer are the network of the launch contents of the arguments. -/
theorem result_eq (c : Dev nD) : W8 m ρ c (Proc.devRef .tc main_v65)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  -- after the first twenty operations: the sources, the targets, the scales
  have s2 : W2 m ρ c (Proc.devRef .tc main_v3) = sources (m ((c.tc : Thread nD τ).loc main_arg1)) := early_sources (W0 m ρ c)
  have t2 : W2 m ρ c (Proc.devRef .tc main_v6) = targets (m ((c.tc : Thread nD τ).loc main_arg1)) := early_targets (W0 m ρ c)
  have q2 : W2 m ρ c (Proc.devRef .tc main_v15) = invSqrtDegree (targets (m ((c.tc : Thread nD τ).loc main_arg1))) := early_scales (W0 m ρ c)
  -- what the first region is entered with
  have s3 : W3 m ρ c (Proc.devRef .tc main_v3) = sources (m ((c.tc : Thread nD τ).loc main_arg1)) := (late_keeps_main_v3 (W2 m ρ c)).trans s2
  have t3 : W3 m ρ c (Proc.devRef .tc main_v6) = targets (m ((c.tc : Thread nD τ).loc main_arg1)) := (late_keeps_main_v6 (W2 m ρ c)).trans t2
  have n3 : W3 m ρ c (Proc.devRef .tc main_v30) = edgeWeights (sources (m ((c.tc : Thread nD τ).loc main_arg1))) (targets (m ((c.tc : Thread nD τ).loc main_arg1))) := by
    refine (late_weights (W2 m ρ c)).trans ?_
    rw [q2, s2, t2]
    rfl
  have a0 : W3 m ρ c (Proc.devRef .tc main_arg0) = (m ((c.tc : Thread nD τ).loc main_arg0)) := first_keeps_main_arg0 (W0 m ρ c)
  have a2 : W3 m ρ c (Proc.devRef .tc main_arg2) = (m ((c.tc : Thread nD τ).loc main_arg2)) := first_keeps_main_arg2 (W0 m ρ c)
  have a3 : W3 m ρ c (Proc.devRef .tc main_arg3) = (m ((c.tc : Thread nD τ).loc main_arg3)) := first_keeps_main_arg3 (W0 m ρ c)
  have a4 : W3 m ρ c (Proc.devRef .tc main_arg4) = (m ((c.tc : Thread nD τ).loc main_arg4)) := first_keeps_main_arg4 (W0 m ρ c)
  have a5 : W3 m ρ c (Proc.devRef .tc main_arg5) = (m ((c.tc : Thread nD τ).loc main_arg5)) := first_keeps_main_arg5 (W0 m ρ c)
  -- what the first region leaves
  have p4 : W4 m ρ c (Proc.devRef .tc main_v31) = DenseOne.product (m ((c.tc : Thread nD τ).loc main_arg0)) (m ((c.tc : Thread nD τ).loc main_arg2)) := by
    refine (W4_arr m ρ c 2).trans ((DenseOne.array_eq (V3 m ρ) c).trans ?_)
    rw [show V3 m ρ c main_arg0 = (m ((c.tc : Thread nD τ).loc main_arg0)) from a0, show V3 m ρ c main_arg2 = (m ((c.tc : Thread nD τ).loc main_arg2)) from a2]
  have s4 := (W4_of_ne m ρ c main_v3 (by decide)).trans s3
  have t4 := (W4_of_ne m ρ c main_v6 (by decide)).trans t3
  have n4 := (W4_of_ne m ρ c main_v30 (by decide)).trans n3
  have b4 := (W4_of_ne m ρ c main_arg3 (by decide)).trans a3
  have w4 := (W4_of_ne m ρ c main_arg4 (by decide)).trans a4
  have c4 := (W4_of_ne m ρ c main_arg5 (by decide)).trans a5
  -- what the second region is entered with
  have h6 : W6 m ρ c (Proc.devRef .tc main_v48) = hidden (m ((c.tc : Thread nD τ).loc main_arg0)) (m ((c.tc : Thread nD τ).loc main_arg1)) (m ((c.tc : Thread nD τ).loc main_arg2)) (m ((c.tc : Thread nD τ).loc main_arg3)) := by
    refine (middle_hidden (W4 m ρ c)).trans ?_
    rw [p4, s4, t4, n4, b4]
    rfl
  have s6 := (middle_keeps_main_v3 (W4 m ρ c)).trans s4
  have t6 := (middle_keeps_main_v6 (W4 m ρ c)).trans t4
  have n6 := (middle_keeps_main_v30 (W4 m ρ c)).trans n4
  have w6 := (middle_keeps_main_arg4 (W4 m ρ c)).trans w4
  have c6 := (middle_keeps_main_arg5 (W4 m ρ c)).trans c4
  -- what the second region leaves
  have p7 : W7 m ρ c (Proc.devRef .tc main_v49)
      = DenseTwo.product (hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
    refine (W7_arr m ρ c 2).trans ((DenseTwo.array_eq (V6 m ρ) c).trans ?_)
    rw [show V6 m ρ c main_v48 = _ from h6, show V6 m ρ c main_arg4 = _ from w6]
  have s7 := (W7_of_ne m ρ c main_v3 (by decide)).trans s6
  have t7 := (W7_of_ne m ρ c main_v6 (by decide)).trans t6
  have n7 := (W7_of_ne m ρ c main_v30 (by decide)).trans n6
  have c7 := (W7_of_ne m ρ c main_arg5 (by decide)).trans c6
  -- the last stretch
  refine (last_result (W7 m ρ c)).trans ?_
  rw [p7, s7, t7, n7, c7]
  rfl

end Cert.KernelIdeal.Result

end
-- ==== Proof.RefValue.lean ====
/-
  What the reference program computes: the same network of its six arguments.

  The reference's run ends with its result at the composed term of its 114 host operations over the launch contents of
  the arguments. That term is the network, spelt out: the two `dot_general`s are the two dense products (the same sums,
  the contraction coordinate renamed), and everything around them is the graph side's functions, with the messages'
  weights computed a second time for the second layer by the same operations on the same edge list.
-/
import proofs.«159858_j9560597201474_1_alg».proof.Proof.RefRunP
import proofs.«159858_j9560597201474_1_alg».proof.Proof.Network

set_option maxRecDepth 16384

noncomputable section

namespace Cert.ReferenceIdeal.Result

open Cert.ReferenceIdeal Idealize.ShloMosaic Idealize.ShloMosaic.TcCoe Idealize.SL.Sem

variable (m : (ℓ : Loc nD τ sig) → Buf (Elt Ideal) ℓ)

set_option maxHeartbeats 4000000 in
/-- The term the reference's run ends at is the network of the launch contents of its arguments. -/
theorem result_eq (c : Dev nD) : Cert.ReferenceIdeal.ValueP.res_main_v89 (F := Ideal) m c
    = Cert.KernelIdeal.Graph.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.KernelIdeal.Graph.network Cert.KernelIdeal.Graph.hidden
  rw [← Cert.KernelIdeal.DenseOne.hostDot_eq_product, ← Cert.KernelIdeal.DenseTwo.hostDot_eq_product]
  unfold Cert.ReferenceIdeal.ValueP.res_main_v89
  rfl

end Cert.ReferenceIdeal.Result

end
-- ==== Proof.lean ====
/-
  A two-layer graph convolution, its two dense products run as row-tiled kernels, against the same network written
  with plain matrix products.

  Both programs compute `aggregate (relu (aggregate (x · W1) + b1) · W2) + b2` over the same graph: every message
  (an edge, or a node's self loop) carries a row of the dense product from its source to its target, scaled by
  `deg(source)^(-1/2) · deg(target)^(-1/2)`. The kernel program computes the messages' sources, targets and weights once
  and runs each dense product as a pipeline of twenty row blocks of 5000 rows, rounding the operands to bf16 — on the
  extended reals the identity — and accumulating from zero; the reference applies one `dot_general` per layer and
  recomputes the weights for the second layer by the same operations. A row block of a product is the product of the
  row block, and the twenty blocks tile the rows, so each region leaves the whole product (Proof/DenseOne.lean,
  Proof/DenseTwo.lean); the operations around the products are the same functions on both sides
  (Proof/GraphOps.lean) and are never opened, so no property of a scatter-add, a gather or an infinite entry is used,
  and the precondition (finite inputs) is not needed for the equality. The kernel program's result is read off its run
  boundary by boundary (Proof/KernelRun.lean, Proof/Stretches.lean, Proof/KernelValue.lean), the reference's off its own
  run (Proof/RefRunP.lean, Proof/RefValue.lean); both are `Graph.network` of the arguments (Proof/Network.lean).
  The ideal pass rewrote nothing, so `preserves` is `True`.
-/
import proofs.«159858_j9560597201474_1_alg».proof.Defs
import proofs.«159858_j9560597201474_1_alg».proof.Proof.Gen.Kernel
import proofs.«159858_j9560597201474_1_alg».proof.Proof.Gen.Kernel.Frame
import proofs.«159858_j9560597201474_1_alg».proof.Proof.Gen.KernelIdeal
import proofs.«159858_j9560597201474_1_alg».proof.Proof.Gen.KernelIdeal.Frame
import proofs.«159858_j9560597201474_1_alg».proof.Proof.Gen.ReferenceIdeal
import proofs.«159858_j9560597201474_1_alg».proof.Proof.Gen.Pre_finite_inputs
import proofs.«159858_j9560597201474_1_alg».proof.Proof.KernelValue
import proofs.«159858_j9560597201474_1_alg».proof.Proof.RefValue

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the six arguments both programs end with the network of those arguments in their result
    buffers: the kernel program by its run read boundary by boundary, the reference by its own run's term. -/
theorem algebraic : Cert.algebraic_KernelIdeal_ReferenceIdeal := by
  intro m ρ m' ρ' _ hagree
  refine ⟨fun c => Cert.KernelIdeal.Graph.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.result_eq m ρ c), (h c).2⟩)
      (Cert.KernelIdeal.Gen.run_named m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Result.result_eq m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
